-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x12x64 : Shape := ⟨4, ![8, 1024, 12, 64]⟩
abbrev S1024x1024 : Shape := ⟨2, ![1024, 1024]⟩
abbrev S64x64 : Shape := ⟨2, ![64, 64]⟩
abbrev S_ : Shape := ⟨0, ![]⟩

class Facts : Prop where
  bcast_S_S8x1024x12x64 : S_.BroadcastsInDim S8x1024x12x64 (![] : Fin 0 → Fin S8x1024x12x64.rank)
  reducesTo_S8x1024x12x64_S_d0_1_2_3 : S8x1024x12x64.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S8x1024x12x64 .f32) (main_arg1 : FVec F S1024x1024 .f32) (main_arg2 : FVec F S64x64 .f32) : IVec S_ 1 :=
  let main_v0 : FVec F S8x1024x12x64 .f32 := Host.absf main_arg0
  let main_cst : FVec F S_ .f32 := constant S_ .f32 0x7F800000#32
  let main_v1 : FVec F S8x1024x12x64 .f32 := broadcastInDim S8x1024x12x64 ![] bcast_S_S8x1024x12x64 main_cst
  let main_v2 : IVec S8x1024x12x64 1 := cmpf .olt main_v0 main_v1
  let main_c : IVec S_ 1 := constantI S_ 1 1#1
  let main_v3 : IVec S_ 1 := (fun x v => Host.reduce IntOp.andi x v reducesTo_S8x1024x12x64_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S8x1024x12x64 : Shape := ⟨4, ![8, 1024, 12, 64]⟩
abbrev S1024x1024 : Shape := ⟨2, ![1024, 1024]⟩
abbrev S64x64 : Shape := ⟨2, ![64, 64]⟩
abbrev S8x12x1024x64 : Shape := ⟨4, ![8, 12, 1024, 64]⟩
abbrev S96x1024x64 : Shape := ⟨3, ![96, 1024, 64]⟩
abbrev S12x1024x64 : Shape := ⟨3, ![12, 1024, 64]⟩
abbrev S1x1024x64 : Shape := ⟨3, ![1, 1024, 64]⟩
abbrev S1024x64 : Shape := ⟨2, ![1024, 64]⟩
abbrev S64x1024 : Shape := ⟨2, ![64, 1024]⟩
abbrev S1024 : Shape := ⟨1, ![1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S8x1024x12x64, .f32⟩
  | .hbm, ⟨1, _⟩ => ⟨S1024x1024, .f32⟩
  | .hbm, ⟨2, _⟩ => ⟨S64x64, .f32⟩
  | .hbm, ⟨3, _⟩ => ⟨S8x12x1024x64, .f32⟩
  | .hbm, ⟨4, _⟩ => ⟨S96x1024x64, .f32⟩
  | .hbm, ⟨5, _⟩ => ⟨S96x1024x64, .f32⟩
  | .hbm, ⟨6, _⟩ => ⟨S8x12x1024x64, .f32⟩
  | .hbm, ⟨7, _⟩ => ⟨S8x1024x12x64, .f32⟩
  | .local _ .vmem, ⟨0, _⟩ => ⟨S12x1024x64, .f32⟩
  | .local _ .vmem, ⟨1, _⟩ => ⟨S12x1024x64, .f32⟩
  | .local _ .vmem, ⟨2, _⟩ => ⟨S1024x1024, .f32⟩
  | .local _ .vmem, ⟨3, _⟩ => ⟨S64x64, .f32⟩
  | .local _ .vmem, ⟨4, _⟩ => ⟨S12x1024x64, .f32⟩
  | .local _ .vmem, ⟨5, _⟩ => ⟨S12x1024x64, .f32⟩
  | _, _ => ⟨S8x1024x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c12_i32 : BitVec 32 := 12#32
  let v3 : BitVec 32 := Scalar.addi c0_i32 c12_i32
  let c1_i32 : BitVec 32 := 1#32
  ⟨c0_i32, v3, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v4 : Index := Scalar.indexCast arg5
  let c0_4 : Index := 0#32
  let c0_5 : Index := 0#32
  ![v4.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S12x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8x1024x12x64_S8x12x1024x64_0_2_1_3 : S8x1024x12x64.Transposes [0, 2, 1, 3] S8x12x1024x64
  shapeCasts_S8x12x1024x64_S96x1024x64 : S8x12x1024x64.ShapeCasts S96x1024x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  h_S1x1024x64 : 0 < S1x1024x64.numel
  shapeCasts_S1x1024x64_S1024x64 : S1x1024x64.ShapeCasts S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1024x64 : S1024x64.ShapeCasts S1x1024x64
  shapeCasts_S96x1024x64_S8x12x1024x64 : S96x1024x64.ShapeCasts S8x12x1024x64
  transposes_S8x12x1024x64_S8x1024x12x64_0_2_1_3 : S8x12x1024x64.Transposes [0, 2, 1, 3] S8x1024x12x64
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S1024x64_S64x64_S1024x64_1_0_0_1_n_n_wf : DotDims.WF S1024x64 S64x64 S1024x64 [1] [0] [0] [1] [] []
  hrank0 : 0 < grid0.rank
  k0_t1_ok : k0_t1_loop.OK
  k0_off1_inb : ∀ k0_t1 : Fin k0_t1_loop.trips, ∀ a, (k0_off1 k0_t1) a + S1x1024x64.size a ≤ S12x1024x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x1024x64.size a ≤ S96x1024x64.size a
  hwx0_0 : ∀ i : grid0.Coords, EltTy.bits .f32 = 32 ∨ (Rect.block (s := S96x1024x64) S12x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S12x1024x64.size a ≤ S96x1024x64.size a
  hwx0_3 : ∀ i : grid0.Coords, EltTy.bits .f32 = 32 ∨ (Rect.block (s := S96x1024x64) S12x1024x64.size (cc0_transform_3 i) (hinb0_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_v1) S12x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S12x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x12x64 : Shape := ⟨4, ![8, 1024, 12, 64]⟩
abbrev S1024x1024 : Shape := ⟨2, ![1024, 1024]⟩
abbrev S64x64 : Shape := ⟨2, ![64, 64]⟩
abbrev S8x12x1024x64 : Shape := ⟨4, ![8, 12, 1024, 64]⟩
abbrev S96x1024x64 : Shape := ⟨3, ![96, 1024, 64]⟩
abbrev S96x1024x1024 : Shape := ⟨3, ![96, 1024, 1024]⟩
abbrev S_ : Shape := ⟨0, ![]⟩
abbrev S96x1024 : Shape := ⟨2, ![96, 1024]⟩
abbrev S96x1024x1 : Shape := ⟨3, ![96, 1024, 1]⟩
abbrev S1x1024x1024 : Shape := ⟨3, ![1, 1024, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x1024x12x64, .f32⟩
  | .hbm, ⟨1, _⟩ => ⟨S1024x1024, .f32⟩
  | .hbm, ⟨2, _⟩ => ⟨S64x64, .f32⟩
  | .hbm, ⟨3, _⟩ => ⟨S8x12x1024x64, .f32⟩
  | .hbm, ⟨4, _⟩ => ⟨S96x1024x64, .f32⟩
  | .hbm, ⟨5, _⟩ => ⟨S96x1024x1024, .f32⟩
  | .hbm, ⟨6, _⟩ => ⟨S_, .f32⟩
  | .hbm, ⟨7, _⟩ => ⟨S_, .f32⟩
  | .hbm, ⟨8, _⟩ => ⟨S96x1024x1024, .f32⟩
  | .hbm, ⟨9, _⟩ => ⟨S96x1024x1024, .f32⟩
  | .hbm, ⟨10, _⟩ => ⟨S_, .f32⟩
  | .hbm, ⟨11, _⟩ => ⟨S96x1024, .f32⟩
  | .hbm, ⟨12, _⟩ => ⟨S_, .f32⟩
  | .hbm, ⟨13, _⟩ => ⟨S96x1024, .f32⟩
  | .hbm, ⟨14, _⟩ => ⟨S96x1024, .f32⟩
  | .hbm, ⟨15, _⟩ => ⟨S96x1024x1, .f32⟩
  | .hbm, ⟨16, _⟩ => ⟨S96x1024x1024, .f32⟩
  | .hbm, ⟨17, _⟩ => ⟨S96x1024x1024, .f32⟩
  | .hbm, ⟨18, _⟩ => ⟨S96x1024x1024, .f32⟩
  | .hbm, ⟨19, _⟩ => ⟨S_, .f32⟩
  | .hbm, ⟨20, _⟩ => ⟨S96x1024, .f32⟩
  | .hbm, ⟨21, _⟩ => ⟨S96x1024x1, .f32⟩
  | .hbm, ⟨22, _⟩ => ⟨S96x1024x1024, .f32⟩
  | .hbm, ⟨23, _⟩ => ⟨S96x1024x1024, .f32⟩
  | .hbm, ⟨24, _⟩ => ⟨S1x1024x1024, .f32⟩
  | .hbm, ⟨25, _⟩ => ⟨S96x1024x1024, .f32⟩
  | .hbm, ⟨26, _⟩ => ⟨S96x1024x1024, .f32⟩
  | .hbm, ⟨27, _⟩ => ⟨S96x1024x64, .f32⟩
  | .hbm, ⟨28, _⟩ => ⟨S96x1024x64, .f32⟩
  | .hbm, ⟨29, _⟩ => ⟨S8x12x1024x64, .f32⟩
  | .hbm, ⟨30, _⟩ => ⟨S8x1024x12x64, .f32⟩
  | .hbm, ⟨31, _⟩ => ⟨S_, .f32⟩
  | .hbm, ⟨32, _⟩ => ⟨S8x1024x12x64, .f32⟩
  | .hbm, ⟨33, _⟩ => ⟨S8x1024x12x64, .f32⟩
  | _, _ => ⟨S8x1024x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_cst : Ref sig .tc := ⟨.hbm, 31, rfl⟩
abbrev main_call0_v0 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  transposes_S8x1024x12x64_S8x12x1024x64_0_2_1_3 : S8x1024x12x64.Transposes [0, 2, 1, 3] S8x12x1024x64
  shapeCasts_S8x12x1024x64_S96x1024x64 : S8x12x1024x64.ShapeCasts S96x1024x64
  bcast_S_S96x1024x1024 : S_.BroadcastsInDim S96x1024x1024 (![] : Fin 0 → Fin S96x1024x1024.rank)
  reducesTo_S96x1024x1024_S96x1024_d2 : S96x1024x1024.ReducesTo [2] S96x1024
  h_S_ : 0 < S_.numel
  bcast_S_S96x1024 : S_.BroadcastsInDim S96x1024 (![] : Fin 0 → Fin S96x1024.rank)
  bcast_S96x1024_S96x1024x1_0_1 : S96x1024.BroadcastsInDim S96x1024x1 (![0, 1] : Fin 2 → Fin S96x1024x1.rank)
  bcast_S96x1024x1_S96x1024x1024_0_1_2 : S96x1024x1.BroadcastsInDim S96x1024x1024 (![0, 1, 2] : Fin 3 → Fin S96x1024x1024.rank)
  bcast_S1024x1024_S1x1024x1024_1_2 : S1024x1024.BroadcastsInDim S1x1024x1024 (![1, 2] : Fin 2 → Fin S1x1024x1024.rank)
  bcast_S1x1024x1024_S96x1024x1024_0_1_2 : S1x1024x1024.BroadcastsInDim S96x1024x1024 (![0, 1, 2] : Fin 3 → Fin S96x1024x1024.rank)
  shapeCasts_S96x1024x64_S8x12x1024x64 : S96x1024x64.ShapeCasts S8x12x1024x64
  transposes_S8x12x1024x64_S8x1024x12x64_0_2_1_3 : S8x12x1024x64.Transposes [0, 2, 1, 3] S8x1024x12x64
  bcast_S_S8x1024x12x64 : S_.BroadcastsInDim S8x1024x12x64 (![] : Fin 0 → Fin S8x1024x12x64.rank)
  dot_S96x1024x64_S96x1024x64_S96x1024x1024_2_2_1_1_0_0_wf : DotDims.WF S96x1024x64 S96x1024x64 S96x1024x1024 [2] [2] [1] [1] [0] [0]
  dot_S96x1024x1024_S96x1024x64_S96x1024x64_2_1_1_2_0_0_wf : DotDims.WF S96x1024x1024 S96x1024x64 S96x1024x64 [2] [1] [1] [2] [0] [0]
  dot_S96x1024x64_S64x64_S96x1024x64_2_0_01_1_n_n_wf : DotDims.WF S96x1024x64 S64x64 S96x1024x64 [2] [0] [0, 1] [1] [] []

variable [Facts₀]

def dot_S96x1024x64_S96x1024x64_S96x1024x1024_2_2_1_1_0_0 : DotDims S96x1024x64 S96x1024x64 S96x1024x1024 where
  lhsContracting := [2]
  rhsContracting := [2]
  lhsNonContracting := [1]
  rhsNonContracting := [1]
  lhsBatch := [0]
  rhsBatch := [0]
  wf := dot_S96x1024x64_S96x1024x64_S96x1024x1024_2_2_1_1_0_0_wf
def dot_S96x1024x1024_S96x1024x64_S96x1024x64_2_1_1_2_0_0 : DotDims S96x1024x1024 S96x1024x64 S96x1024x64 where
  lhsContracting := [2]
  rhsContracting := [1]
  lhsNonContracting := [1]
  rhsNonContracting := [2]
  lhsBatch := [0]
  rhsBatch := [0]
  wf := dot_S96x1024x1024_S96x1024x64_S96x1024x64_2_1_1_2_0_0_wf
def dot_S96x1024x64_S64x64_S96x1024x64_2_0_01_1_n_n : DotDims S96x1024x64 S64x64 S96x1024x64 where
  lhsContracting := [2]
  rhsContracting := [0]
  lhsNonContracting := [0, 1]
  rhsNonContracting := [1]
  lhsBatch := []
  rhsBatch := []
  wf := dot_S96x1024x64_S64x64_S96x1024x64_2_0_01_1_n_n_wf

class Facts : Prop extends Facts₀ where

variable [Facts]
-- ==== Proof.Block.lean ====
/-
  What the kernel body leaves in its output block.

  The body's loop runs over the twelve groups of a block. Trip `k` loads the rows of group `k` (a `[1, 1024, 64]` slab of
  the `[12, 1024, 64]` input block), computes the group's attention output from them, the adjacency block and the projection
  block, and stores it into slab `k` of the output block. So entry `(k, r, o)` of the output block is the payload of group
  `k`'s rows at `(0, r, o)`: the twelve stores are the twelve slabs of ONE function of the block index, and they tile the
  block.
-/
import proofs.«132124_j82566451299288_2_alg».proof.Proof.Gen.KernelIdeal.Frame
import Idealize.ShloMosaic.Lib.Pipeline.Value
import Idealize.ShloMosaic.Lib.ValueIdx

set_option maxRecDepth 16384

noncomputable section

namespace Cert.KernelIdeal.Block

open Idealize.ShloMosaic Idealize.ShloMosaic.TcCoe Idealize.ShloMosaic.ValueIdx Idealize.SL.Sem
open Cert.KernelIdeal Cert.KernelIdeal.Gen

variable {F : FTy → Type} [FloatOps F]

/-- The rows of group `k` of a block of twelve groups, as a one-group array. -/
def group (x0 : Vec F S12x1024x64 .f32) (k : Fin 12) : Vec F S1x1024x64 .f32 := fun z => x0 (ix3 k (z 1) (z 2))

/-- The output block as one function of the block index: entry `(k, r, o)` is group `k`'s payload at `(0, r, o)`. -/
def blockOut (x0 : Vec F S12x1024x64 .f32) (x1 : Vec F S1024x1024 .f32) (x2 : Vec F S64x64 .f32) : Vec F S12x1024x64 .f32 :=
  fun y => k0_pay1 x2 x1 (group x0 (y 0)) (ix3 (0 : Fin 1) (y 1) (y 2))

/-- The slab trip `k` touches starts at `(k, 0, 0)`. -/
theorem off_coords (k : Fin k0_t1_loop.trips) : k0_off1 k 0 = k.val ∧ k0_off1 k 1 = 0 ∧ k0_off1 k 2 = 0 := by
  rw [k0_off1_eq]; exact ⟨rfl, rfl, rfl⟩

/-- Trip `k`'s store is slab `k` of `blockOut`. -/
theorem piece_agree (arg1 : Memref sig .tc .vmem S12x1024x64 .f32) (v0 : Vec F S64x64 .f32) (v2 : Vec F S1024x1024 .f32)
    (X : BufTy.Contents (Elt F) arg1.view.ty) (k : Fin k0_t1_loop.trips)
    (x : (Rect.unit (s := S12x1024x64) (k0_off1 k) S1x1024x64.size (k0_off1_inb k)).shape.Idx) :
    k0_pay1 v0 v2 (View.readAt (Elt F) arg1.view (Rect.unit (s := S12x1024x64) (k0_off1 k) S1x1024x64.size (k0_off1_inb k)).toLoadRect X) x
      = blockOut (arg1.view.read (Elt F) X) v2 v0 ((Rect.unit (s := S12x1024x64) (k0_off1 k) S1x1024x64.size (k0_off1_inb k)).emb x) := by
  obtain ⟨h0, h1, h2⟩ := off_coords k
  have hx0 : (x 0).val < 1 := (x 0).isLt
  unfold blockOut
  congr 1
  · funext z
    have hz0 : (z 0).val < 1 := (z 0).isLt
    rw [View.readAt_apply]
    unfold group
    congr 1
    funext a
    apply Fin.ext
    match a with
    | ⟨0, _⟩ => show k0_off1 k 0 + 1 * (z 0).val = k0_off1 k 0 + 1 * (x 0).val; omega
    | ⟨1, _⟩ => show k0_off1 k 1 + 1 * (z 1).val = (z 1).val; omega
    | ⟨2, _⟩ => show k0_off1 k 2 + 1 * (z 2).val = (z 2).val; omega
  · funext a
    apply Fin.ext
    match a with
    | ⟨0, _⟩ => show (x 0).val = 0; omega
    | ⟨1, _⟩ => show (x 1).val = k0_off1 k 1 + 1 * (x 1).val; omega
    | ⟨2, _⟩ => show (x 2).val = k0_off1 k 2 + 1 * (x 2).val; omega

/-- Every store of the trips before `n` is a slab of `blockOut`: by induction over the trips, each adding its one store. -/
theorem pieces_agree (𝒱 : Variants) (c : Dev nD) (bd : Option 𝒱.V) (i : grid0.Coords)
    (arg1 : Memref sig .tc .vmem S12x1024x64 .f32) (harg1 : arg1.IsWhole) (arg2 : Memref sig .tc .vmem S1024x1024 .f32) (harg2 : arg2.IsWhole)
    (arg3 : Memref sig .tc .vmem S64x64 .f32) (harg3 : arg3.IsWhole) (arg4 : Memref sig .tc .vmem S12x1024x64 .f32) (harg4 : arg4.IsWhole)
    (v0 : Vec F S64x64 .f32) (v2 : Vec F S1024x1024 .f32) (X : BufTy.Contents (Elt F) arg1.view.ty) :
    ∀ n : ℕ, ∀ p ∈ pb_k0_t1 (F := F) 𝒱 c bd i arg1 harg1 arg2 harg2 arg3 harg3 arg4 harg4 v0 v2 X n,
      ∀ x : p.1.shape.Idx, p.2 x = blockOut (arg1.view.read (Elt F) X) v2 v0 (p.1.emb x)
  | 0 => fun p hp => by rw [pb_k0_t1.eq_1] at hp; exact absurd hp List.not_mem_nil
  | n + 1 => fun p hp => by
    rw [pb_k0_t1.eq_2] at hp
    unfold pb_k0_t1Step at hp
    split at hp
    · rename_i hn
      rcases List.mem_append.mp hp with h | h
      · unfold tripL_k0_t1 trip_k0_t1 at h
        dsimp only at h
        obtain rfl := List.mem_singleton.mp h
        exact piece_agree arg1 v0 v2 X ⟨n, hn⟩
      · exact pieces_agree 𝒱 c bd i arg1 harg1 arg2 harg2 arg3 harg3 arg4 harg4 v0 v2 X n p h
    · exact pieces_agree 𝒱 c bd i arg1 harg1 arg2 harg2 arg3 harg3 arg4 harg4 v0 v2 X n p hp

theorem hz2 : (![0, 0] : Fin 2 → Nat) = fun _ => 0 := funext fun a => by fin_cases a <;> rfl

/-- THE OUTPUT BLOCK: what the body leaves in its output's staging buffer is `blockOut` of its three input blocks. The
    stores are read back over unwritten contents, so the buffer reads as the stores' overlay; they all agree with
    `blockOut` and they cover the block. -/
theorem out_eq (c : Dev nD) (i : grid0.Coords) (arg1 : Memref sig .tc .vmem S12x1024x64 .f32) (harg1 : arg1.IsWhole)
    (arg2 : Memref sig .tc .vmem S1024x1024 .f32) (harg2 : arg2.IsWhole) (arg3 : Memref sig .tc .vmem S64x64 .f32) (harg3 : arg3.IsWhole)
    (arg4 : Memref sig .tc .vmem S12x1024x64 .f32) (harg4 : arg4.IsWhole)
    (x0 : Vec F S12x1024x64 .f32) (x1 : Vec F S1024x1024 .f32) (x2 : Vec F S64x64 .f32) :
    out0_A_3 c i arg1 harg1 arg2 harg2 arg3 harg3 arg4 harg4 x0 x1 x2 = blockOut x0 x1 x2 := by
  unfold out0_A_3
  rw [View.read_writes_junk_eq_canon]
  funext y
  refine View.canon_apply_of_pieces (blockOut x0 x1 x2) _ ?_ y (cover0_A_3 c i arg1 harg1 arg2 harg2 arg3 harg3 arg4 harg4 x0 x1 x2 y)
  unfold kernelRun0_A
  dsimp only
  intro p hp x
  have h := pieces_agree Variants.none c none i arg1 harg1 arg2 harg2 arg3 harg3 arg4 harg4 _ _ _ _ p hp x
  rw [h]
  simp only [View.readAt_eq_ld, harg1.read_unread, harg2.read_unread, harg3.read_unread,
    View.ld_unit_zero (S := S64x64) hz2, View.ld_unit_zero (S := S1024x1024) hz2]

end Cert.KernelIdeal.Block

end
-- ==== Proof.KernelArray.lean ====
/-
  The kernel's result array as one function of the arrays the region finds.

  The region's first operand is the `[96, 1024, 64]` array of groups (the argument transposed and reshaped by the two host
  lines before the region); the grid has eight points and point `t` works on groups `12 t … 12 t + 11`, with the whole
  adjacency and projection arrays as its other two blocks. By the block lemma, what point `t` writes back is, at
  `(k, r, o)`, the payload of group `12 t + k`'s rows at `(0, r, o)`: block `t` of ONE function `groups` of the result
  index `(g, r, o)` — the payload of group `g`'s rows. The eight blocks tile the result array, so it ends holding `groups`,
  and the two host lines after the region reshape and transpose it.
-/
import proofs.«132124_j82566451299288_2_alg».proof.Proof.Block
import Idealize.ShloMosaic.Lib.Pipeline.Value
import Idealize.ShloMosaic.Lib.StableHlo.Run
import Idealize.ShloMosaic.Lib.Tactic

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Block

variable {F : FTy → Type} [FloatOps F]
variable (m : (ℓ : Loc nD τ sig) → Buf (Elt F) ℓ) (ρ : Dev nD → PrngReg)

/-- The rows of group `g` of the array of groups, as a one-group array. -/
def groupRows (xr : Vec F S96x1024x64 .f32) (g : Fin 96) : Vec F S1x1024x64 .f32 := fun z => xr (ix3 g (z 1) (z 2))

/-- The result array as one function: entry `(g, r, o)` is the payload of group `g`'s rows at `(0, r, o)`. -/
def groups (xr : Vec F S96x1024x64 .f32) (adj : Vec F S1024x1024 .f32) (w : Vec F S64x64 .f32) : Vec F S96x1024x64 .f32 :=
  fun j => k0_pay1 w adj (groupRows xr (j 0)) (ix3 (0 : Fin 1) (j 1) (j 2))

/-- Block `t` of `groups`, from blocks that are the rows of their arrays: over variables of the literal types. -/
theorem blockOut_eq_groups (x0 : Vec F S12x1024x64 .f32) (x1 adj : Vec F S1024x1024 .f32) (x2 w : Vec F S64x64 .f32)
    (xr : Vec F S96x1024x64 .f32) (tv : ℕ)
    (h0 : ∀ (x : S12x1024x64.Idx) (k : S96x1024x64.Idx), (k 0).val = 12 * tv + (x 0).val → (k 1).val = (x 1).val →
      (k 2).val = (x 2).val → x0 x = xr k)
    (h1 : x1 = adj) (h2 : x2 = w) (y : S12x1024x64.Idx) (j : S96x1024x64.Idx)
    (hj0 : (j 0).val = 12 * tv + (y 0).val) (hj1 : (j 1).val = (y 1).val) (hj2 : (j 2).val = (y 2).val) :
    blockOut x0 x1 x2 y = groups xr adj w j := by
  subst h1 h2
  unfold blockOut groups
  congr 1
  · funext z
    unfold group groupRows
    exact h0 _ _ hj0 rfl rfl
  · funext a
    apply Fin.ext
    match a with
    | ⟨0, _⟩ => rfl
    | ⟨1, _⟩ => exact hj1.symm
    | ⟨2, _⟩ => exact hj2.symm

/-- The printed index maps over the grid: point `t` takes block `t` of the groups and of the result, and the one block of
    the adjacency and of the projection. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The first window's block at point `t` is groups `12 t … 12 t + 11` of the array of groups. -/
theorem iblk0_apply (c : Dev nD) (t : Fin cfg0.N) (x : S12x1024x64.Idx) (k : S96x1024x64.Idx)
    (hk0 : (k 0).val = 12 * t.val + (x 0).val) (hk1 : (k 1).val = (x 1).val) (hk2 : (k 2).val = (x 2).val) :
    (iblk m c 0 t : Vec F S12x1024x64 .f32) x = (V m c main_v1 : S96x1024x64.Idx → Elt F .f32) k := by
  obtain ⟨e0, e1, e2, -⟩ := idx_facts t
  unfold iblk
  rw [View.read_apply]
  show V m c main_v1 _ = V m c main_v1 _
  congr 1
  funext a
  apply Fin.ext
  match a with
  | ⟨0, _⟩ => show win0_0.index t 0 * 12 + 1 * (x 0).val = (k 0).val; rw [e0, hk0]; omega
  | ⟨1, _⟩ => show win0_0.index t 1 * 1024 + 1 * (x 1).val = (k 1).val; rw [e1, hk1]; omega
  | ⟨2, _⟩ => show win0_0.index t 2 * 64 + 1 * (x 2).val = (k 2).val; rw [e2, hk2]; omega

/-- The second window's one block is the whole adjacency array. -/
theorem iblk1_eq (c : Dev nD) (t : Fin cfg0.N) : (iblk m c 1 t : Vec F S1024x1024 .f32) = V m c main_arg1 := by
  obtain ⟨-, -, -, e0, e1, -⟩ := idx_facts t
  funext x
  unfold iblk
  rw [View.read_apply]
  show V m c main_arg1 _ = V m c main_arg1 _
  congr 1
  funext a
  apply Fin.ext
  match a with
  | ⟨0, _⟩ => show win0_1.index t 0 * 1024 + 1 * (x 0).val = (x 0).val; rw [e0]; omega
  | ⟨1, _⟩ => show win0_1.index t 1 * 1024 + 1 * (x 1).val = (x 1).val; rw [e1]; omega

/-- The third window's one block is the whole projection array. -/
theorem iblk2_eq (c : Dev nD) (t : Fin cfg0.N) : (iblk m c 2 t : Vec F S64x64 .f32) = V m c main_arg2 := by
  obtain ⟨-, -, -, -, -, e0, e1, -⟩ := idx_facts t
  funext x
  unfold iblk
  rw [View.read_apply]
  show V m c main_arg2 _ = V m c main_arg2 _
  congr 1
  funext a
  apply Fin.ext
  match a with
  | ⟨0, _⟩ => show win0_2.index t 0 * 64 + 1 * (x 0).val = (x 0).val; rw [e0]; omega
  | ⟨1, _⟩ => show win0_2.index t 1 * 64 + 1 * (x 1).val = (x 1).val; rw [e1]; omega

/-- WHAT POINT `t` WRITES BACK is block `t` of `groups` of the arrays as the region finds them. -/
theorem flushed_eq (c : Dev nD) (t : Fin cfg0.N) :
    (dats m 0 c).flushed 3 t
      = ((cfg0.win 3).blk t).view.read (Elt F) (groups (V m c main_v1) (V m c main_arg1) (V m c main_arg2)) := by
  obtain ⟨-, -, -, -, -, -, -, e0, e1, e2⟩ := idx_facts t
  show (cfg0.win 3).cut (grid0.coords t) ((dats m 0 c).after 3 t) = _
  rw [after0_3]
  unfold outsAt0
  rw [out_eq]
  funext y
  rw [View.read_apply]
  refine blockOut_eq_groups _ _ _ _ _ _ t.val (fun x k => iblk0_apply m c t x k) (iblk1_eq m c t) (iblk2_eq m c t) y _ ?_ ?_ ?_
  · show win0_3.index t 0 * 12 + 1 * (y 0).val = 12 * t.val + (y 0).val; rw [e0]; omega
  · show win0_3.index t 1 * 1024 + 1 * (y 1).val = (y 1).val; rw [e1]; omega
  · show win0_3.index t 2 * 64 + 1 * (y 2).val = (y 2).val; rw [e2]; omega

/-- An index of the result array is in point `t`'s block iff each coordinate is in the block's range on its axis. -/
theorem mem_blk (t : Fin cfg0.N) (i : S96x1024x64.Idx) :
    i ∈ ((cfg0.win 3).blk t).view.set ↔ ∀ a : Fin 3, win0_3.index t a * S12x1024x64.size a ≤ (i a).val
      ∧ (i a).val < win0_3.index t a * S12x1024x64.size a + S12x1024x64.size a := by
  show i ∈ ((View.whole main_v2).slice (win0_3.rect t)).set ↔ _
  rw [View.set_slice_whole, Rect.mem_set_unit]
  exact Iff.rfl

/-- Group `g` lies in the block of point `g / 12`: the eight blocks tile the result array. -/
theorem cover (i : S96x1024x64.Idx) :
    ∃ t : Fin cfg0.N, (cfg0.win 3).flush t = true ∧ i ∈ ((cfg0.win 3).blk t).view.set := by
  have hi0 : (i 0).val < 96 := (i 0).isLt
  have hi1 : (i 1).val < 1024 := (i 1).isLt
  have hi2 : (i 2).val < 64 := (i 2).isLt
  have hN : cfg0.N = 8 := N_0
  let t : Fin cfg0.N := ⟨(i 0).val / 12, by rw [hN]; omega⟩
  obtain ⟨-, -, -, -, -, -, -, e0, e1, e2⟩ := idx_facts t
  have ht : t.val = (i 0).val / 12 := rfl
  refine ⟨t, flush0_3 t, ?_⟩
  rw [mem_blk]
  intro a
  match a with
  | ⟨0, _⟩ => show win0_3.index t 0 * 12 ≤ (i 0).val ∧ (i 0).val < win0_3.index t 0 * 12 + 12; rw [e0, ht]; omega
  | ⟨1, _⟩ => show win0_3.index t 1 * 1024 ≤ (i 1).val ∧ (i 1).val < win0_3.index t 1 * 1024 + 1024; rw [e1]; omega
  | ⟨2, _⟩ => show win0_3.index t 2 * 64 ≤ (i 2).val ∧ (i 2).val < win0_3.index t 2 * 64 + 64; rw [e2]; omega

/-- THE RESULT ARRAY of the region after the run is `groups` of the arrays as the region finds them. -/
theorem final (c : Dev nD) :
    (dats m 0 c).arrAt 3 cfg0.N = groups (V m c main_v1) (V m c main_arg1) (V m c main_arg2) :=
  (dats m 0 c).arrAt_eq_of_cover 3 _ (fun t _ => flushed_eq m c t) cover

end Cert.KernelIdeal.Arr

end
-- ==== Proof.KernelRun.lean ====
/-
  The idealized kernel's run, read: its result as one function of its arguments.

  Around the region @main has two host lines before (the argument transposed on its two middle axes and reshaped to the
  `[96, 1024, 64]` array of groups: `head`) and two after (the region's result reshaped to `[8, 12, 1024, 64]` and transposed
  back: `tail`). The frame run ends with the region's result array holding `groups` of what the region found, which is
  `head` of the first argument and the other two arguments themselves; the lines after the region leave `tail` of it in the
  result, and no line writes an argument.
-/
import proofs.«132124_j82566451299288_2_alg».proof.Proof.KernelArray
import Idealize.ShloMosaic.Lib.Pipeline.FrameSuffix
import Idealize.ShloMosaic.Lib.StableHlo.Run

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Block

variable {F : FTy → Type} [FloatOps F]
variable (m : (ℓ : Loc nD τ sig) → Buf (Elt F) ℓ) (ρ : Dev nD → PrngReg)

/-- The two host lines before the region: the array of groups. -/
def head (x : Vec F S8x1024x12x64 .f32) : Vec F S96x1024x64 .f32 :=
  shapeCast S96x1024x64 (transpose S8x12x1024x64 [0, 2, 1, 3] x transposes_S8x1024x12x64_S8x12x1024x64_0_2_1_3)
    shapeCasts_S8x12x1024x64_S96x1024x64

/-- The two host lines after the region: the result in the argument's layout. -/
def tail (y : Vec F S96x1024x64 .f32) : Vec F S8x1024x12x64 .f32 :=
  transpose S8x1024x12x64 [0, 2, 1, 3] (shapeCast S8x12x1024x64 y shapeCasts_S96x1024x64_S8x12x1024x64)
    transposes_S8x12x1024x64_S8x1024x12x64_0_2_1_3

/-- The region finds the array of groups in its first operand. -/
theorem V_main_v1 (c : Dev nD) :
    (V m c main_v1 : S96x1024x64.Idx → Elt F .f32) = head (m ((c : Thread nD τ).loc main_arg0)) := by
  show StableHlo.after hostOps0 (fun b => m (c, b)) (Proc.devRef .tc main_v1) = _
  after_results
  rfl

/-- The lines after the region leave `tail` of the region's result array in @main's result. -/
theorem tail_eq (c : Dev nD) :
    Pipeline.afterTail₀ cfgs (dats m) 0 (V0 m) [hostOps1] c main_v4 = tail ((dats m 0 c).arrAt 3 cfg0.N) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = (dats m 0 c).arrAt 3 cfg0.N := Pipeline.withArrays_arr spec0 launch0.win.arr_inj c _ _ 3
  rw [e]
  rfl

/-- THE RUN, READ: every weakly fair execution of the idealized kernel's @main terminates with the result holding
    `tail (groups (head x) adj w)` of its three arguments and the arguments unchanged. -/
theorem run : θ_run defs (onTc (τ := τ) (main (F := F))) ⟨m, fun _ => 0, ρ⟩ fun r => ∀ c : Dev nD,
      r.2.mem ((c.tc : Thread nD τ).loc main_v4)
        = tail (groups (head (m ((c.tc : Thread nD τ).loc main_arg0))) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans
        ((tail_eq m c).trans (by rw [final, V_main_v1, V_main_arg1, V_main_arg2])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Arr

end
-- ==== Proof.Finite.lean ====
/-
  From the precondition to real entries.

  The precondition says of each float input that every entry's absolute value is below the pattern of plus infinity:
  three comparisons, each folded by `and` over all entries, and the three results `and`-ed. An extended real whose absolute
  value `max x (-x)` is below the top is neither infinity, so it is a real number. The law that joins the two programs
  uses this of the first two inputs (the rows and the adjacency); the projection may be anything.
-/
import proofs.«132124_j82566451299288_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Cert.Pre_finite_inputs

instance : Subsingleton S_.Idx := ⟨fun a b => funext fun d => d.elim0⟩

/-- The pattern the precondition compares with denotes the top of the extended reals. -/
theorem ofBits_posInf : Ideal.ofBits .f32 0x7F800000#32 = (⊤ : EReal) := by
  simp [Ideal.ofBits, Ideal.ieee]

/-- An extended real whose absolute value is below the top is a real. -/
theorem real_of_abs_lt (x : EReal) (h : Ideal.cmp .olt (max x (-x)) (Ideal.ofBits .f32 0x7F800000#32) = 1#1) :
    ∃ r : ℝ, x = (r : EReal) := by
  rw [ofBits_posInf] at h
  induction x using EReal.rec with
  | bot => exact absurd h (by simp [Ideal.cmp])
  | top => exact absurd h (by simp [Ideal.cmp])
  | coe r => exact ⟨r, rfl⟩

variable [Facts]

/-- Under the precondition every entry of the first two inputs is a real. -/
theorem real_of_pre (a0 : FVec Ideal S8x1024x12x64 .f32) (a1 : FVec Ideal S1024x1024 .f32) (a2 : FVec Ideal S64x64 .f32)
    (h : fn (F := Ideal) a0 a1 a2 = fun _ => 1#1) :
    (∀ i, ∃ r : ℝ, a0 i = (r : EReal)) ∧ (∀ i, ∃ r : ℝ, a1 i = (r : EReal)) := by
  have h' := congrFun h ValueIdx.ix0
  dsimp only [fn] at h'
  obtain ⟨h12, -⟩ := IntOp.andi_eq_one.mp h'
  obtain ⟨hA, hB⟩ := IntOp.andi_eq_one.mp h12
  exact ⟨fun i => real_of_abs_lt _ (Host.reduce_andi_all _ _ _ _ _ hA i),
    fun i => real_of_abs_lt _ (Host.reduce_andi_all _ _ _ _ _ hB i)⟩

end Cert.Finite

end
-- ==== Proof.Attention.lean ====
/-
  Adjacency-masked attention over one group of rows, written twice on the extended reals.

  One group is a matrix `X` of 1024 rows of 64 features; `A` is the 1024 × 1024 adjacency weight and `W` the 64 × 64
  projection. Both programs compute, for a row `r` and an output feature `o`,

      relu ( ∑ d, ( ∑ m, A r m · softmax_m (⟨X r, X m⟩ / 8) · X m d ) · W d o ),

  in two arrangements.

  * `outK`: the scale `c` multiplies the row of queries before the inner product, the exponentials are weighted by `A`
    and summed against `X` first, and only that sum is divided by the row's normaliser.
  * `outR`: the inner product is divided by `q`, every exponential is divided by the row's normaliser (which carries the
    additive start value `z`), then weighted by `A` and summed against `X`; the running maximum is once more compared
    with its start value `b`.

  The start value of the maximum `b`, the additive zero `z`, the scale `c` and the divisor `q` are parameters, since each
  program spells them as a float pattern.
-/
import Idealize.ShloMosaic.PureOps.Ideal

noncomputable section

namespace Cert.Attention

open Idealize.ShloMosaic

variable (X : Fin 1024 → Fin 64 → EReal) (A : Fin 1024 → Fin 1024 → EReal) (W : Fin 64 → Fin 64 → EReal)

/-- The largest entry of a row of scores, started from `b`. -/
def rowMax (b : EReal) (S : Fin 1024 → EReal) : EReal := (Finset.univ : Finset (Fin 1024)).fold max b S

/-- Scores with the scale on the query row: `∑ d, (X r d · c) · X m d`. -/
def scoreK (c : EReal) (r m : Fin 1024) : EReal := ∑ d : Fin 64, (X r d * c) * X m d

/-- Scores with the divisor on the inner product: `(∑ d, X r d · X m d) / q`. -/
def scoreR (q : EReal) (r m : Fin 1024) : EReal := Ideal.div (∑ d : Fin 64, X r d * X m d) q

/-- The first arrangement's exponential of a score less its row's maximum. -/
def expK (c b : EReal) (r m : Fin 1024) : EReal := Ideal.exp (scoreK X c r m - rowMax b (scoreK X c r))

/-- The first arrangement's aggregate: the weighted sum divided once by the row's normaliser. -/
def aggK (c b : EReal) (r : Fin 1024) (d : Fin 64) : EReal :=
  Ideal.div (∑ m : Fin 1024, (expK X c b r m * A r m) * X m d) (∑ m : Fin 1024, expK X c b r m)

/-- The first arrangement's output. -/
def outK (c b z : EReal) (r : Fin 1024) (o : Fin 64) : EReal := max (∑ d : Fin 64, aggK X A c b r d * W d o) z

/-- The second arrangement's exponential of a score less its row's maximum (compared once more with `b`). -/
def expR (q b : EReal) (r m : Fin 1024) : EReal := Ideal.exp (scoreR X q r m - max b (rowMax b (scoreR X q r)))

/-- The second arrangement's aggregate: every exponential divided by the normaliser, then weighted and summed. -/
def aggR (q b z : EReal) (r : Fin 1024) (d : Fin 64) : EReal :=
  ∑ m : Fin 1024, (A r m * Ideal.div (expR X q b r m) (z + ∑ m' : Fin 1024, expR X q b r m')) * X m d

/-- The second arrangement's output. -/
def outR (q b z : EReal) (r : Fin 1024) (o : Fin 64) : EReal := max (∑ d : Fin 64, aggR X A q b z r d * W d o) z

end Cert.Attention

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.LibLaneSum.lean ====
/-
  The sum along the rows of a matrix, read at one row.

  A float `vector.multi_reduction <add>` of an `[a, b]` matrix over its SECOND axis (a lane sum: one number per row, the
  form `jnp.sum(x, axis=-1)` takes inside a kernel) is, at row `p` on the extended reals, the plain sum over the
  columns `k` of the entries `(p, k)`: the reduction's accumulator is the neutral element of the sum and contributes
  nothing, and the index the reduction inserts the column `k` into at row `p` is `(p, k)`.
-/
import Idealize.ShloMosaic.Lib.ValueIdx
import Idealize.ShloMosaic.PureOps.Ideal.Laws

noncomputable section

namespace Cert.LaneSum

open Idealize.ShloMosaic Idealize.ShloMosaic.ValueIdx

/-- Row `p` of the lane sum of an `[a, b]` matrix is `∑ k, src[p, k]`, for any float format and any witnesses of the
    reduction's side conditions. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun c => Fin.ext (by
      match c with
      | ⟨0, _⟩ => rfl
      | ⟨1, _⟩ => rfl)))

end Cert.LaneSum

end
-- ==== Proof.PayloadAt.lean ====
/-
  The kernel body's arithmetic for one group, read at an entry on the extended reals.

  The payload takes the projection block `w`, the adjacency block `adj` and the rows `X` of one group (a `[1, 1024, 64]`
  slab). It is cut here into its stages — the rows as a matrix, the scaled scores, each row's largest score, the
  exponentials, their row sums, the aggregate and the output — and each stage is read at an entry: the three matrix
  products as plain sums over the contracted index, the two row reductions as a fold of `max` and a sum over the columns,
  the changes of float format as the identity, a column kept per row as that row's number. Entry `(0, r, o)` of the
  payload is then `Attention.outK` of the group's rows at `(r, o)`.
-/
import proofs.«132124_j82566451299288_2_alg».proof.Proof.Gen.KernelIdeal.Skeleton
import proofs.«132124_j82566451299288_2_alg».proof.Proof.Attention
import proofs.«132124_j82566451299288_2_alg».proof.Proof.LibColumnLayout
import proofs.«132124_j82566451299288_2_alg».proof.Proof.LibPlainProduct
import proofs.«132124_j82566451299288_2_alg».proof.Proof.LibLaneSum
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx
open Cert.KernelIdeal Cert.KernelIdeal.Gen

variable (w : Vec Ideal S64x64 .f32) (adj : Vec Ideal S1024x1024 .f32) (X : Vec Ideal S1x1024x64 .f32)

/-- The patterns the body spells: the scale, the start of the running maximum, the zero of the final comparison. -/
abbrev scale : EReal := Ideal.ofBits .f32 0x3E000000#32
abbrev bottom : EReal := Ideal.ofBits .f32 0xFF800000#32
abbrev zero : EReal := Ideal.ofBits .f32 0x00000000#32

/-- The group's rows, the adjacency and the projection as functions of two coordinates. -/
abbrev Xm : Fin 1024 → Fin 64 → EReal := fun r d => X (ix3 (0 : Fin 1) r d)
abbrev Am : Fin 1024 → Fin 1024 → EReal := fun r m => adj (ix2 r m)
abbrev Wm : Fin 64 → Fin 64 → EReal := fun d o => w (ix2 d o)

/-! ## The operand coordinates of the three products -/

section Dots

theorem d1_l0 (j : S1024x1024.Idx) (q : dot_S1024x64_S64x1024_S1024x1024_1_0_0_1_n_n.contr.Idx) :
    (dot_S1024x64_S64x1024_S1024x1024_1_0_0_1_n_n.lhsIdx j q (0 : Fin 2)).val = (j (0 : Fin 2)).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem d1_l1 (j : S1024x1024.Idx) (q : dot_S1024x64_S64x1024_S1024x1024_1_0_0_1_n_n.contr.Idx) :
    (dot_S1024x64_S64x1024_S1024x1024_1_0_0_1_n_n.lhsIdx j q (1 : Fin 2)).val = (q ⟨0, by decide⟩).val :=
  dot_S1024x64_S64x1024_S1024x1024_1_0_0_1_n_n.lhsIdx_val_of_single rfl j q
theorem d1_r0 (j : S1024x1024.Idx) (q : dot_S1024x64_S64x1024_S1024x1024_1_0_0_1_n_n.contr.Idx) :
    (dot_S1024x64_S64x1024_S1024x1024_1_0_0_1_n_n.rhsIdx j q (0 : Fin 2)).val = (q ⟨0, by decide⟩).val :=
  dot_S1024x64_S64x1024_S1024x1024_1_0_0_1_n_n.rhsIdx_val_of_single rfl j q
theorem d1_r1 (j : S1024x1024.Idx) (q : dot_S1024x64_S64x1024_S1024x1024_1_0_0_1_n_n.contr.Idx) :
    (dot_S1024x64_S64x1024_S1024x1024_1_0_0_1_n_n.rhsIdx j q (1 : Fin 2)).val = (j (1 : Fin 2)).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

theorem d2_l0 (j : S1024x64.Idx) (q : dot_S1024x1024_S1024x64_S1024x64_1_0_0_1_n_n.contr.Idx) :
    (dot_S1024x1024_S1024x64_S1024x64_1_0_0_1_n_n.lhsIdx j q (0 : Fin 2)).val = (j (0 : Fin 2)).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem d2_l1 (j : S1024x64.Idx) (q : dot_S1024x1024_S1024x64_S1024x64_1_0_0_1_n_n.contr.Idx) :
    (dot_S1024x1024_S1024x64_S1024x64_1_0_0_1_n_n.lhsIdx j q (1 : Fin 2)).val = (q ⟨0, by decide⟩).val :=
  dot_S1024x1024_S1024x64_S1024x64_1_0_0_1_n_n.lhsIdx_val_of_single rfl j q
theorem d2_r0 (j : S1024x64.Idx) (q : dot_S1024x1024_S1024x64_S1024x64_1_0_0_1_n_n.contr.Idx) :
    (dot_S1024x1024_S1024x64_S1024x64_1_0_0_1_n_n.rhsIdx j q (0 : Fin 2)).val = (q ⟨0, by decide⟩).val :=
  dot_S1024x1024_S1024x64_S1024x64_1_0_0_1_n_n.rhsIdx_val_of_single rfl j q
theorem d2_r1 (j : S1024x64.Idx) (q : dot_S1024x1024_S1024x64_S1024x64_1_0_0_1_n_n.contr.Idx) :
    (dot_S1024x1024_S1024x64_S1024x64_1_0_0_1_n_n.rhsIdx j q (1 : Fin 2)).val = (j (1 : Fin 2)).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

theorem d3_l0 (j : S1024x64.Idx) (q : dot_S1024x64_S64x64_S1024x64_1_0_0_1_n_n.contr.Idx) :
    (dot_S1024x64_S64x64_S1024x64_1_0_0_1_n_n.lhsIdx j q (0 : Fin 2)).val = (j (0 : Fin 2)).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem d3_l1 (j : S1024x64.Idx) (q : dot_S1024x64_S64x64_S1024x64_1_0_0_1_n_n.contr.Idx) :
    (dot_S1024x64_S64x64_S1024x64_1_0_0_1_n_n.lhsIdx j q (1 : Fin 2)).val = (q ⟨0, by decide⟩).val :=
  dot_S1024x64_S64x64_S1024x64_1_0_0_1_n_n.lhsIdx_val_of_single rfl j q
theorem d3_r0 (j : S1024x64.Idx) (q : dot_S1024x64_S64x64_S1024x64_1_0_0_1_n_n.contr.Idx) :
    (dot_S1024x64_S64x64_S1024x64_1_0_0_1_n_n.rhsIdx j q (0 : Fin 2)).val = (q ⟨0, by decide⟩).val :=
  dot_S1024x64_S64x64_S1024x64_1_0_0_1_n_n.rhsIdx_val_of_single rfl j q
theorem d3_r1 (j : S1024x64.Idx) (q : dot_S1024x64_S64x64_S1024x64_1_0_0_1_n_n.contr.Idx) :
    (dot_S1024x64_S64x64_S1024x64_1_0_0_1_n_n.rhsIdx j q (1 : Fin 2)).val = (j (1 : Fin 2)).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

end Dots

/-! ## The stages -/

/-- The group's rows as a `[1024, 64]` matrix. -/
def rows : FVec Ideal S1024x64 .f32 := shapeCast S1024x64 X shapeCasts_S1x1024x64_S1024x64

theorem rows_apply (r : Fin 1024) (d : Fin 64) : rows X (ix2 r d) = Xm X r d := by
  unfold rows
  refine shapeCast_apply X _ (ix2 r d) (ix3 (0 : Fin 1) r d) ?_
  rw [Shape.rowMajor_val_three, Shape.rowMajor_val_two]
  show (0 * 1024 + r.val) * 64 + d.val = r.val * 64 + d.val
  omega

/-- The scores: the scaled rows against the rows transposed. -/
def scores : FVec Ideal S1024x1024 .f32 :=
  matmul dot_S1024x64_S64x1024_S1024x1024_1_0_0_1_n_n none
    (truncf .bf16 (mulf (rows X) (broadcast S1024x64 (Scalar.ofBits .f32 0x3E000000#32))) bitsLt_bf16_f32)
    (transpose S64x1024 [1, 0] (truncf .bf16 (rows X) bitsLt_bf16_f32) transposes_S1024x64_p1_0_S64x1024)
    (constant S1024x1024 .f32 0x00000000#32)

theorem scores_apply (r m : Fin 1024) : scores X (ix2 r m) = Attention.scoreK (Xm X) scale r m := by
  unfold scores Attention.scoreK
  simp only [matmul]
  refine (Cert.PlainProduct.matmul_zero_entry dot_S1024x64_S64x1024_S1024x1024_1_0_0_1_n_n rfl rfl d1_l0 d1_l1 d1_r0 d1_r1 _ _ r m).trans ?_
  refine Finset.sum_congr rfl fun d _ => ?_
  have e2 : transpose S64x1024 [1, 0] (truncf .bf16 (rows X) bitsLt_bf16_f32) transposes_S1024x64_p1_0_S64x1024 (ix2 d m)
      = truncf .bf16 (rows X) bitsLt_bf16_f32 (ix2 m d) :=
    transpose_apply [1, 0] _ transposes_S1024x64_p1_0_S64x1024 (ix2 d m) (ix2 m d) (fun b => match b with
      | ⟨0, _⟩ => rfl
      | ⟨1, _⟩ => rfl)
  rw [e2]
  show (rows X (ix2 r d) * scale) * rows X (ix2 m d) = _
  rw [rows_apply, rows_apply]

/-- Each row's largest score. -/
def rowTop : FVec Ideal S1024 .f32 :=
  multiReduction .maximumf [1] S1024 (scores X) 0xFF800000#32 reduces_S1024x1024_S1024 (.inl rfl) rfl

theorem rowTop_apply (r : Fin 1024) : rowTop X (ix1 r) = Attention.rowMax bottom (Attention.scoreK (Xm X) scale r) := by
  unfold rowTop Attention.rowMax
  refine (Ideal.multiReduction_maximumf_single (scores X) _ reduces_S1024x1024_S1024 (.inl rfl) rfl (ix1 r)).trans ?_
  refine congrArg (fun f => (Finset.univ : Finset (Fin 1024)).fold max bottom f) (funext fun m => ?_)
  refine Eq.trans ?_ (scores_apply X r m)
  exact congrArg (scores X) (funext fun c => Fin.ext (by
    match c with
    | ⟨0, _⟩ => rfl
    | ⟨1, _⟩ => rfl))

/-- The exponential of each score less its row's largest. -/
def expo : FVec Ideal S1024x1024 .f32 :=
  exp (subf (scores X) (broadcastTo S1024x1024 (shapeCast S1024x1 (rowTop X) shapeCasts_S1024_S1024x1) broadcasts_S1024x1_S1024x1024))

theorem expo_apply (r m : Fin 1024) : expo X (ix2 r m) = Attention.expK (Xm X) scale bottom r m := by
  unfold expo Attention.expK
  show Ideal.exp (scores X (ix2 r m) - broadcastTo S1024x1024 (shapeCast S1024x1 (rowTop X) shapeCasts_S1024_S1024x1) broadcasts_S1024x1_S1024x1024 (ix2 r m)) = _
  rw [Cert.ColumnLayout.broadcastTo_a1_ab_apply, Cert.ColumnLayout.shapeCast_a_a1_apply, scores_apply, rowTop_apply]

/-- Each row's sum of exponentials. -/
def norm : FVec Ideal S1024 .f32 :=
  multiReduction .add [1] S1024 (expo X) 0x00000000#32 reduces_S1024x1024_S1024 (.inl rfl) rfl

theorem norm_apply (r : Fin 1024) : norm X (ix1 r) = ∑ m : Fin 1024, Attention.expK (Xm X) scale bottom r m := by
  unfold norm
  refine (Cert.LaneSum.multiReduction_add_rows (expo X) _ reduces_S1024x1024_S1024 (.inl rfl) rfl r).trans ?_
  exact Finset.sum_congr rfl fun m _ => expo_apply X r m

/-- The aggregate: the exponentials weighted by the adjacency, summed against the rows, divided by the row's sum. -/
def agg : FVec Ideal S1024x64 .f32 :=
  divf (matmul dot_S1024x1024_S1024x64_S1024x64_1_0_0_1_n_n none (truncf .bf16 (mulf (expo X) adj) bitsLt_bf16_f32)
      (truncf .bf16 (rows X) bitsLt_bf16_f32) (constant S1024x64 .f32 0x00000000#32))
    (broadcastTo S1024x64 (shapeCast S1024x1 (norm X) shapeCasts_S1024_S1024x1) broadcasts_S1024x1_S1024x64)

theorem agg_apply (r : Fin 1024) (d : Fin 64) : agg adj X (ix2 r d) = Attention.aggK (Xm X) (Am adj) scale bottom r d := by
  unfold agg Attention.aggK
  show Ideal.div (matmul dot_S1024x1024_S1024x64_S1024x64_1_0_0_1_n_n none (truncf .bf16 (mulf (expo X) adj) bitsLt_bf16_f32)
      (truncf .bf16 (rows X) bitsLt_bf16_f32) (constant S1024x64 .f32 0x00000000#32) (ix2 r d))
    (broadcastTo S1024x64 (shapeCast S1024x1 (norm X) shapeCasts_S1024_S1024x1) broadcasts_S1024x1_S1024x64 (ix2 r d)) = _
  rw [Cert.ColumnLayout.broadcastTo_a1_ab_apply, Cert.ColumnLayout.shapeCast_a_a1_apply, norm_apply]
  congr 1
  simp only [matmul]
  refine (Cert.PlainProduct.matmul_zero_entry dot_S1024x1024_S1024x64_S1024x64_1_0_0_1_n_n rfl rfl d2_l0 d2_l1 d2_r0 d2_r1 _ _ r d).trans ?_
  refine Finset.sum_congr rfl fun m _ => ?_
  show (expo X (ix2 r m) * adj (ix2 r m)) * rows X (ix2 m d) = _
  rw [expo_apply, rows_apply]

/-- The output: the aggregate against the projection, compared with zero, as a `[1, 1024, 64]` slab. -/
def out : FVec Ideal S1x1024x64 .f32 :=
  shapeCast S1x1024x64
    (maximumf (matmul dot_S1024x64_S64x64_S1024x64_1_0_0_1_n_n none (truncf .bf16 (agg adj X) bitsLt_bf16_f32)
        (truncf .bf16 w bitsLt_bf16_f32) (constant S1024x64 .f32 0x00000000#32))
      (broadcast S1024x64 (Scalar.ofBits .f32 0x00000000#32)))
    shapeCasts_S1024x64_S1x1024x64

/-- The payload is its stages composed. -/
theorem pay_eq : k0_pay1 (F := Ideal) w adj X = out w adj X := rfl

theorem out_apply (r : Fin 1024) (o : Fin 64) :
    out w adj X (ix3 (0 : Fin 1) r o) = Attention.outK (Xm X) (Am adj) (Wm w) scale bottom zero r o := by
  unfold out Attention.outK
  refine (shapeCast_apply _ shapeCasts_S1024x64_S1x1024x64 (ix3 (0 : Fin 1) r o) (ix2 r o) (by
    rw [Shape.rowMajor_val_three, Shape.rowMajor_val_two]
    show r.val * 64 + o.val = (0 * 1024 + r.val) * 64 + o.val
    omega)).trans ?_
  show max (matmul dot_S1024x64_S64x64_S1024x64_1_0_0_1_n_n none (truncf .bf16 (agg adj X) bitsLt_bf16_f32)
      (truncf .bf16 w bitsLt_bf16_f32) (constant S1024x64 .f32 0x00000000#32) (ix2 r o)) zero = _
  congr 1
  simp only [matmul]
  refine (Cert.PlainProduct.matmul_zero_entry dot_S1024x64_S64x64_S1024x64_1_0_0_1_n_n rfl rfl d3_l0 d3_l1 d3_r0 d3_r1 _ _ r o).trans ?_
  refine Finset.sum_congr rfl fun d _ => ?_
  show agg adj X (ix2 r d) * w (ix2 d o) = _
  rw [agg_apply]

/-- ENTRY `(0, r, o)` OF THE PAYLOAD is the first arrangement's output for the group's rows. -/
theorem pay_apply (r : Fin 1024) (o : Fin 64) :
    k0_pay1 (F := Ideal) w adj X (ix3 (0 : Fin 1) r o) = Attention.outK (Xm X) (Am adj) (Wm w) scale bottom zero r o := by
  rw [pay_eq]
  exact out_apply w adj X r o

end Cert.KernelIdeal.Payload

end
-- ==== Proof.RefAt.lean ====
/-
  The reference read at an entry on the extended reals.

  The reference works on the whole `[96, 1024, 64]` array of groups at once; entry `(g, r, o)` of its projected aggregate
  depends on group `g` alone. Reading its operations one at a time at explicit coordinates — the three batched products
  as sums over the contracted index, the row maximum as a fold of `max`, the row sum as the start value plus a sum, each
  broadcast as the operand at the kept coordinates — gives, after the final comparison with zero, `Attention.outR` of
  group `g`'s rows at `(r, o)`.
-/
import proofs.«132124_j82566451299288_2_alg».proof.Proof.Gen.ReferenceIdeal.Read
import proofs.«132124_j82566451299288_2_alg».proof.Proof.Attention
import Idealize.ShloMosaic.Lib.ValueIdx
import Idealize.ShloMosaic.PureOps.Ideal.Laws
import Idealize.ShloMosaic.PureOps.Reduce

noncomputable section

namespace Cert.ReferenceIdeal.RefAt

open Idealize.ShloMosaic Idealize.ShloMosaic.ValueIdx
open Cert.ReferenceIdeal Cert.ReferenceIdeal.Gen Cert.ReferenceIdeal.Read

variable (x0 : (⟨S8x1024x12x64, .f32⟩ : BufTy).Contents (Elt Ideal)) (x1 : (⟨S1024x1024, .f32⟩ : BufTy).Contents (Elt Ideal))
  (x2 : (⟨S64x64, .f32⟩ : BufTy).Contents (Elt Ideal))

/-- The patterns the reference spells: the divisor (a square root taken on the host), the start of the running maximum,
    the additive start and the zero of the final comparison. -/
abbrev divisor : EReal := Ideal.sqrt (Ideal.ofBits .f32 0x42800000#32)
abbrev bottom : EReal := Ideal.ofBits .f32 0xFF800000#32
abbrev zero : EReal := Ideal.ofBits .f32 0x00000000#32

/-- Group `g`'s rows of the array of groups, the adjacency and the projection as functions of two coordinates. -/
abbrev Xg (g : Fin 96) : Fin 1024 → Fin 64 → EReal := fun r d => val_main_v1 (F := Ideal) x0 (ix3 g r d)
abbrev Am : Fin 1024 → Fin 1024 → EReal := fun r m => x1 (ix2 r m)
abbrev Wm : Fin 64 → Fin 64 → EReal := fun d o => x2 (ix2 d o)

/-- The scores: the inner product of two rows of the group, divided. -/
theorem score_apply (g : Fin 96) (r m : Fin 1024) :
    val_main_v5 (F := Ideal) x0 (ix3 g r m) = Attention.scoreR (Xg x0 g) divisor r m := by
  rw [val_main_v5_apply, val_main_v2_apply, val_main_v4_apply, val_main_v3_apply, val_main_cst_apply]
  unfold Attention.scoreR
  show Ideal.div (∑ k : Fin 64, val_main_v1 (F := Ideal) x0 (lidx_main_v2 (ix3 g r m) k) * val_main_v1 (F := Ideal) x0 (ridx_main_v2 (ix3 g r m) k)) divisor = _
  congr 1

/-- Each row's largest score, compared once more with the start value. -/
theorem top_apply (g : Fin 96) (r : Fin 1024) :
    val_main_v8 (F := Ideal) x0 (ix2 g r) = max bottom (Attention.rowMax bottom (Attention.scoreR (Xg x0 g) divisor r)) := by
  rw [val_main_v8_apply, val_main_v7_apply, val_main_cst_1_apply]
  show max bottom (val_main_v6 (F := Ideal) x0 (ix2 g r)) = _
  refine congrArg (max bottom) ?_
  unfold val_main_v6 Attention.rowMax
  have hR : S96x1024x1024.Reduces [2] S96x1024 := by decide
  refine (Host.reduce_eq_fold_single (FloatOps.maximumf (F := Ideal) (φ := .f32)) (val_main_v5 (F := Ideal) x0)
    (val_main_cst_0 (F := Ideal)) reducesTo_S96x1024x1024_S96x1024_d2 hR h_S_ (ix2 g r)).trans ?_
  refine congrArg (fun f => (Finset.univ : Finset (Fin 1024)).fold max bottom f) (funext fun m => ?_)
  refine Eq.trans ?_ (score_apply x0 g r m)
  exact congrArg (val_main_v5 (F := Ideal) x0) (funext fun c => Fin.ext (by
    match c with
    | ⟨0, _⟩ => rfl
    | ⟨1, _⟩ => rfl
    | ⟨2, _⟩ => rfl))

/-- The exponential of each score less its row's largest. -/
theorem expo_apply (g : Fin 96) (r m : Fin 1024) :
    val_main_v12 (F := Ideal) x0 (ix3 g r m) = Attention.expR (Xg x0 g) divisor bottom r m := by
  rw [val_main_v12_apply, val_main_v11_apply, val_main_v10_apply, val_main_v9_apply]
  unfold Attention.expR
  have e : idx_main_v9 (idx_main_v10 (ix3 g r m)) = ix2 g r := funext fun a => Fin.ext (by
    match a with
    | ⟨0, _⟩ => rfl
    | ⟨1, _⟩ => rfl)
  rw [e, score_apply, top_apply]
  rfl

/-- Each row's sum of exponentials, from its start value. -/
theorem norm_apply (g : Fin 96) (r : Fin 1024) :
    val_main_v13 (F := Ideal) x0 (ix2 g r) = zero + ∑ m : Fin 1024, Attention.expR (Xg x0 g) divisor bottom r m := by
  rw [val_main_v13_apply, val_main_cst_2_apply]
  show zero + _ = _
  refine congrArg (zero + ·) ?_
  refine Finset.sum_congr rfl fun m _ => ?_
  refine Eq.trans ?_ (expo_apply x0 g r m)
  exact congrArg (val_main_v12 (F := Ideal) x0) (funext fun a => Fin.ext (by
    match a with
    | ⟨0, _⟩ => rfl
    | ⟨1, _⟩ => rfl
    | ⟨2, _⟩ => rfl))

/-- The adjacency weight times the normalised exponential. -/
theorem weight_apply (g : Fin 96) (r m : Fin 1024) :
    val_main_v19 (F := Ideal) x0 x1 (ix3 g r m)
      = Am x1 r m * Ideal.div (Attention.expR (Xg x0 g) divisor bottom r m)
          (zero + ∑ m' : Fin 1024, Attention.expR (Xg x0 g) divisor bottom r m') := by
  rw [val_main_v19_apply, val_main_v18_apply, val_main_v17_apply, val_main_v16_apply, val_main_v15_apply, val_main_v14_apply]
  have e1 : idx_main_v17 (idx_main_v18 (ix3 g r m)) = ix2 r m := funext fun a => Fin.ext (by
    match a with
    | ⟨0, _⟩ => rfl
    | ⟨1, _⟩ => rfl)
  have e2 : idx_main_v14 (idx_main_v15 (ix3 g r m)) = ix2 g r := funext fun a => Fin.ext (by
    match a with
    | ⟨0, _⟩ => rfl
    | ⟨1, _⟩ => rfl)
  rw [e1, e2, expo_apply, norm_apply]
  rfl

/-- The aggregate: the weights summed against the group's rows. -/
theorem agg_apply (g : Fin 96) (r : Fin 1024) (d : Fin 64) :
    val_main_v20 (F := Ideal) x0 x1 (ix3 g r d) = Attention.aggR (Xg x0 g) (Am x1) divisor bottom zero r d := by
  rw [val_main_v20_apply]
  unfold Attention.aggR
  refine Finset.sum_congr rfl fun m _ => ?_
  have el : lidx_main_v20 (ix3 g r d) m = ix3 g r m := funext fun a => Fin.ext (by
    match a with
    | ⟨0, _⟩ => rfl
    | ⟨1, _⟩ => rfl
    | ⟨2, _⟩ => rfl)
  have er : ridx_main_v20 (ix3 g r d) m = ix3 g m d := funext fun a => Fin.ext (by
    match a with
    | ⟨0, _⟩ => rfl
    | ⟨1, _⟩ => rfl
    | ⟨2, _⟩ => rfl)
  rw [el, er, weight_apply]

/-- ENTRY `(g, r, o)` of the projected aggregate, compared with zero, is the second arrangement's output for group `g`. -/
theorem out_apply (g : Fin 96) (r : Fin 1024) (o : Fin 64) :
    max (val_main_v21 (F := Ideal) x0 x1 x2 (ix3 g r o)) zero
      = Attention.outR (Xg x0 g) (Am x1) (Wm x2) divisor bottom zero r o := by
  rw [val_main_v21_apply]
  unfold Attention.outR
  refine congrArg (fun t => max t zero) ?_
  refine Finset.sum_congr rfl fun d _ => ?_
  have el : lidx_main_v21 (ix3 g r o) d = ix3 g r d := funext fun a => Fin.ext (by
    match a with
    | ⟨0, _⟩ => rfl
    | ⟨1, _⟩ => rfl
    | ⟨2, _⟩ => rfl)
  have er : ridx_main_v21 (ix3 g r o) d = ix2 d o := funext fun a => Fin.ext (by
    match a with
    | ⟨0, _⟩ => rfl
    | ⟨1, _⟩ => rfl)
  rw [el, er, agg_apply]

end Cert.ReferenceIdeal.RefAt

end
-- ==== Proof.AttentionLaw.lean ====
/-
  The two arrangements of adjacency-masked attention agree on real inputs.

  On real rows every score is a real number, so the row maximum is a real number, every exponential is a positive
  real number and the normaliser is a positive real number. Dividing the weighted sum once by the normaliser is then
  the same as dividing every exponential by it before weighting, by distributivity in the real field.
-/
import proofs.«132124_j82566451299288_2_alg».proof.Proof.Attention

noncomputable section

namespace Cert.Attention

open Idealize.ShloMosaic

/-- A finite sum of real numbers, read in the extended reals, is the sum of the readings. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The real score of row `m` against row `r`: the inner product with the factor one eighth. -/
def scoreReal (xR : Fin 1024 → Fin 64 → ℝ) (r m : Fin 1024) : ℝ := ∑ d : Fin 64, xR r d * (1 / 8) * xR m d

variable (xR : Fin 1024 → Fin 64 → ℝ) (aR : Fin 1024 → Fin 1024 → ℝ)

/-- Scaling the query row by one eighth gives the real score. -/
theorem scoreK_coe (r m : Fin 1024) :
    scoreK (fun r d => ((xR r d : ℝ) : EReal)) ((1 / 8 : ℝ) : EReal) r m = ((scoreReal xR r m : ℝ) : EReal) := by
  show ∑ d : Fin 64, (((xR r d : ℝ) : EReal) * ((1 / 8 : ℝ) : EReal)) * ((xR m d : ℝ) : EReal) = _
  unfold scoreReal
  rw [← coe_sum]
  refine Finset.sum_congr rfl (fun d _ => ?_)
  rw [EReal.coe_mul, EReal.coe_mul]

/-- Dividing the inner product by eight gives the same real score. -/
theorem scoreR_coe (r m : Fin 1024) :
    scoreR (fun r d => ((xR r d : ℝ) : EReal)) ((8 : ℝ) : EReal) r m = ((scoreReal xR r m : ℝ) : EReal) := by
  show Ideal.div (∑ d : Fin 64, ((xR r d : ℝ) : EReal) * ((xR m d : ℝ) : EReal)) ((8 : ℝ) : EReal) = _
  have h8 : (8 : ℝ) ≠ 0 := by norm_num
  rw [Ideal.div_coe h8]
  have hs : ∑ d : Fin 64, ((xR r d : ℝ) : EReal) * ((xR m d : ℝ) : EReal)
      = ((∑ d : Fin 64, xR r d * xR m d : ℝ) : EReal) := by
    rw [← coe_sum]
    refine Finset.sum_congr rfl (fun d _ => ?_)
    rw [EReal.coe_mul]
  rw [hs, ← EReal.coe_mul, EReal.coe_eq_coe_iff]
  unfold scoreReal
  rw [Finset.sum_mul]
  refine Finset.sum_congr rfl (fun d _ => ?_)
  ring

/-- The largest of a row of real scores, started from `⊥`, is a real number: it is at least the first score, and
    every score lies below `⊤`. -/
theorem rowMax_coe (s : Fin 1024 → ℝ) : ∃ μ : ℝ, rowMax ⊥ (fun m => ((s m : ℝ) : EReal)) = ((μ : ℝ) : EReal) := by
  have hbot : rowMax ⊥ (fun m => ((s m : ℝ) : EReal)) ≠ ⊥ := by
    have hle : ((s 0 : ℝ) : EReal) ≤ rowMax ⊥ (fun m => ((s m : ℝ) : EReal)) := by
      unfold rowMax
      rw [Finset.le_fold_max]
      exact Or.inr ⟨0, Finset.mem_univ _, le_rfl⟩
    intro h
    rw [h] at hle
    exact absurd hle (not_le.mpr (EReal.bot_lt_coe _))
  have htop : rowMax ⊥ (fun m => ((s m : ℝ) : EReal)) ≠ ⊤ := by
    have hlt : rowMax ⊥ (fun m => ((s m : ℝ) : EReal)) < ⊤ := by
      unfold rowMax
      rw [Finset.fold_max_lt]
      exact ⟨bot_lt_top, fun x _ => EReal.coe_lt_top _⟩
    exact ne_of_lt hlt
  exact ⟨_, (EReal.coe_toReal htop hbot).symm⟩

/-- With the row maximum `μ`, the first arrangement's exponential is the real exponential of the score less `μ`. -/
theorem expK_coe (r : Fin 1024) (μ : ℝ)
    (hμ : rowMax ⊥ (fun m => ((scoreReal xR r m : ℝ) : EReal)) = ((μ : ℝ) : EReal)) (m : Fin 1024) :
    expK (fun r d => ((xR r d : ℝ) : EReal)) ((1 / 8 : ℝ) : EReal) ⊥ r m
      = ((Real.exp (scoreReal xR r m - μ) : ℝ) : EReal) := by
  have hrow : scoreK (fun r d => ((xR r d : ℝ) : EReal)) ((1 / 8 : ℝ) : EReal) r
      = fun m => ((scoreReal xR r m : ℝ) : EReal) := funext (scoreK_coe xR r)
  unfold expK
  rw [scoreK_coe, hrow, hμ, ← EReal.coe_sub, Ideal.exp_coe]

/-- The second arrangement's exponential is the same real number: comparing the maximum once more with `⊥` changes
    nothing. -/
theorem expR_coe (r : Fin 1024) (μ : ℝ)
    (hμ : rowMax ⊥ (fun m => ((scoreReal xR r m : ℝ) : EReal)) = ((μ : ℝ) : EReal)) (m : Fin 1024) :
    expR (fun r d => ((xR r d : ℝ) : EReal)) ((8 : ℝ) : EReal) ⊥ r m
      = ((Real.exp (scoreReal xR r m - μ) : ℝ) : EReal) := by
  have hrow : scoreR (fun r d => ((xR r d : ℝ) : EReal)) ((8 : ℝ) : EReal) r
      = fun m => ((scoreReal xR r m : ℝ) : EReal) := funext (scoreR_coe xR r)
  unfold expR
  rw [scoreR_coe, hrow, hμ, max_eq_right bot_le, ← EReal.coe_sub, Ideal.exp_coe]

/-- With row maximum `μ` and a nonzero normaliser, the first aggregate is the real number
    `(∑ m, e m · a m · x m) · (1 / l)`, where `e m` is the exponential and `l` their sum. -/
theorem aggK_coe (r : Fin 1024) (d : Fin 64) (μ : ℝ)
    (hμ : rowMax ⊥ (fun m => ((scoreReal xR r m : ℝ) : EReal)) = ((μ : ℝ) : EReal))
    (hl0 : (∑ m : Fin 1024, Real.exp (scoreReal xR r m - μ)) ≠ 0) :
    aggK (fun r d => ((xR r d : ℝ) : EReal)) (fun r m => ((aR r m : ℝ) : EReal)) ((1 / 8 : ℝ) : EReal) ⊥ r d
      = (((∑ m : Fin 1024, Real.exp (scoreReal xR r m - μ) * aR r m * xR m d)
          * (1 / ∑ m : Fin 1024, Real.exp (scoreReal xR r m - μ)) : ℝ) : EReal) := by
  have hnorm : ∑ m : Fin 1024, ((Real.exp (scoreReal xR r m - μ) : ℝ) : EReal)
      = ((∑ m : Fin 1024, Real.exp (scoreReal xR r m - μ) : ℝ) : EReal) := coe_sum _ _
  have hnum : ∑ m : Fin 1024, (((Real.exp (scoreReal xR r m - μ) : ℝ) : EReal) * ((aR r m : ℝ) : EReal))
        * ((xR m d : ℝ) : EReal)
      = ((∑ m : Fin 1024, Real.exp (scoreReal xR r m - μ) * aR r m * xR m d : ℝ) : EReal) := by
    rw [← coe_sum]
    refine Finset.sum_congr rfl (fun m _ => ?_)
    rw [EReal.coe_mul, EReal.coe_mul]
  unfold aggK
  simp only [expK_coe xR r μ hμ]
  rw [hnum, hnorm, Ideal.div_coe hl0, ← EReal.coe_mul]

/-- Under the same hypotheses the second aggregate is the real number `∑ m, a m · (e m · (1 / l)) · x m`: the additive
    start value `0` of the normaliser disappears. -/
theorem aggR_coe (r : Fin 1024) (d : Fin 64) (μ : ℝ)
    (hμ : rowMax ⊥ (fun m => ((scoreReal xR r m : ℝ) : EReal)) = ((μ : ℝ) : EReal))
    (hl0 : (∑ m : Fin 1024, Real.exp (scoreReal xR r m - μ)) ≠ 0) :
    aggR (fun r d => ((xR r d : ℝ) : EReal)) (fun r m => ((aR r m : ℝ) : EReal)) ((8 : ℝ) : EReal) ⊥ 0 r d
      = ((∑ m : Fin 1024, aR r m * (Real.exp (scoreReal xR r m - μ)
          * (1 / ∑ m' : Fin 1024, Real.exp (scoreReal xR r m' - μ))) * xR m d : ℝ) : EReal) := by
  have hnorm : ∑ m : Fin 1024, ((Real.exp (scoreReal xR r m - μ) : ℝ) : EReal)
      = ((∑ m : Fin 1024, Real.exp (scoreReal xR r m - μ) : ℝ) : EReal) := coe_sum _ _
  unfold aggR
  simp only [expR_coe xR r μ hμ]
  rw [← coe_sum, hnorm, zero_add]
  refine Finset.sum_congr rfl (fun m _ => ?_)
  rw [Ideal.div_coe hl0, EReal.coe_mul, EReal.coe_mul, EReal.coe_mul]

/-- The two aggregates agree: dividing the weighted sum once by the positive normaliser `l` is the same as dividing
    every exponential by `l` before weighting. -/
theorem aggK_eq_aggR (r : Fin 1024) (d : Fin 64) :
    aggK (fun r d => ((xR r d : ℝ) : EReal)) (fun r m => ((aR r m : ℝ) : EReal)) ((1 / 8 : ℝ) : EReal) ⊥ r d
      = aggR (fun r d => ((xR r d : ℝ) : EReal)) (fun r m => ((aR r m : ℝ) : EReal)) ((8 : ℝ) : EReal) ⊥ 0 r d := by
  obtain ⟨μ, hμ⟩ := rowMax_coe (scoreReal xR r)
  have hl : 0 < ∑ m : Fin 1024, Real.exp (scoreReal xR r m - μ) :=
    Finset.sum_pos (fun m _ => Real.exp_pos _) Finset.univ_nonempty
  rw [aggK_coe xR aR r d μ hμ (ne_of_gt hl), aggR_coe xR aR r d μ hμ (ne_of_gt hl), EReal.coe_eq_coe_iff,
    Finset.sum_mul]
  refine Finset.sum_congr rfl (fun m _ => ?_)
  ring

/-- The two outputs agree on real rows and real adjacency weights, for any projection matrix. -/
theorem outK_eq_outR (xR : Fin 1024 → Fin 64 → ℝ) (aR : Fin 1024 → Fin 1024 → ℝ) (W : Fin 64 → Fin 64 → EReal)
    (r : Fin 1024) (o : Fin 64) :
    outK (fun r d => ((xR r d : ℝ) : EReal)) (fun r m => ((aR r m : ℝ) : EReal)) W (((1 / 8 : ℝ) : ℝ) : EReal) ⊥ 0 r o
      = outR (fun r d => ((xR r d : ℝ) : EReal)) (fun r m => ((aR r m : ℝ) : EReal)) W ((8 : ℝ) : EReal) ⊥ 0 r o := by
  unfold outK outR
  simp only [aggK_eq_aggR xR aR r]

end Cert.Attention

end
-- ==== Proof.Consts.lean ====
/- The float constants the two programs spell, as the extended reals their patterns denote.
   The kernel scales a row of queries by the pattern of 0.125 before the first product; the reference
   divides the product by the square root of the pattern of 64. Both are the real 1/8: 64 is 8 squared. -/
import Idealize.ShloMosaic.PureOps.Ideal
import Idealize.ShloMosaic.PureOps.Ideal.Laws

noncomputable section

namespace Cert.Consts

open Idealize.ShloMosaic

/-- The pattern of `0.125` denotes the real `1/8`. -/
theorem ofBits_eighth : Ideal.ofBits .f32 0x3E000000#32 = ((1 / 8 : ℝ) : EReal) := by
  simp [Ideal.ofBits, Ideal.ieee, -EReal.coe_mul]; norm_num

/-- The pattern of `64.0` denotes the real `64`. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- The pattern of negative infinity denotes the bottom of the extended reals. -/
theorem ofBits_negInf : Ideal.ofBits .f32 0xFF800000#32 = (⊥ : EReal) := by
  simp [Ideal.ofBits, Ideal.ieee]

end Cert.Consts

end
-- ==== Proof.Bridge.lean ====
/-
  The two results are one array.

  The idealized kernel ends with `tail (groups (head x) adj w)`; the reference ends with its projected aggregate reshaped,
  transposed and compared with zero. The reshape and the transpose are the same re-indexing on both sides and the comparison
  with zero is entrywise, so it is enough that, at every entry `(g, r, o)` of the `[96, 1024, 64]` layout, the reference's
  projected aggregate compared with zero is `groups` there. The left side is the second arrangement of the attention of
  group `g`'s rows, the right side the first; they agree once the rows and the adjacency are real, with the scale the
  real 1/8, the divisor the square root of 64, the start of the maximum the bottom and both zeros the real zero.
-/
import proofs.«132124_j82566451299288_2_alg».proof.Proof.KernelRun
import proofs.«132124_j82566451299288_2_alg».proof.Proof.PayloadAt
import proofs.«132124_j82566451299288_2_alg».proof.Proof.RefAt
import proofs.«132124_j82566451299288_2_alg».proof.Proof.AttentionLaw
import proofs.«132124_j82566451299288_2_alg».proof.Proof.Consts

noncomputable section

namespace Cert.Bridge

open Idealize.ShloMosaic Idealize.ShloMosaic.ValueIdx
open Cert.KernelIdeal.Arr

variable (a0 : FVec Ideal Cert.KernelIdeal.S8x1024x12x64 .f32) (a1 : FVec Ideal Cert.KernelIdeal.S1024x1024 .f32)
  (a2 : FVec Ideal Cert.KernelIdeal.S64x64 .f32)

/-- The array of groups is the reference's own second value: the same two host lines. -/
theorem head_eq : head (F := Ideal) a0 = Cert.ReferenceIdeal.Read.val_main_v1 (F := Ideal) a0 := rfl

/-- The array of groups holds reals when the argument does: it is a re-indexing of it. -/
theorem head_real (h0 : ∀ i, ∃ r : ℝ, a0 i = (r : EReal)) (i : Cert.KernelIdeal.S96x1024x64.Idx) :
    ∃ r : ℝ, head (F := Ideal) a0 i = (r : EReal) := by
  unfold head shapeCast transpose
  exact h0 _

/-- AT EVERY ENTRY of the `[96, 1024, 64]` layout the reference's projected aggregate compared with zero is `groups`. -/
theorem entry_eq (h0 : ∀ i, ∃ r : ℝ, a0 i = (r : EReal)) (h1 : ∀ i, ∃ r : ℝ, a1 i = (r : EReal))
    (j : Cert.KernelIdeal.S96x1024x64.Idx) :
    max (Cert.ReferenceIdeal.Read.val_main_v21 (F := Ideal) a0 a1 a2 j) (Ideal.ofBits .f32 0x00000000#32)
      = groups (F := Ideal) (head a0) a1 a2 j := by
  obtain ⟨g, r, o, rfl⟩ : ∃ (g : Fin 96) (r : Fin 1024) (o : Fin 64), j = ix3 g r o := ⟨j 0, j 1, j 2, eq_ix3 j⟩
  rw [Cert.ReferenceIdeal.RefAt.out_apply]
  show _ = Cert.KernelIdeal.Gen.k0_pay1 (F := Ideal) a2 a1 (groupRows (head a0) g) (ix3 (0 : Fin 1) r o)
  rw [Cert.KernelIdeal.Payload.pay_apply]
  choose xR hxR using head_real a0 h0
  choose aR haR using h1
  have eXk : Cert.KernelIdeal.Payload.Xm (groupRows (head a0) g) = fun r d => ((xR (ix3 g r d) : ℝ) : EReal) :=
    funext fun r => funext fun d => hxR (ix3 g r d)
  have eXr : Cert.ReferenceIdeal.RefAt.Xg a0 g = fun r d => ((xR (ix3 g r d) : ℝ) : EReal) :=
    funext fun r => funext fun d => hxR (ix3 g r d)
  have eAk : Cert.KernelIdeal.Payload.Am a1 = fun r m => ((aR (ix2 r m) : ℝ) : EReal) :=
    funext fun r => funext fun m => haR (ix2 r m)
  have eAr : Cert.ReferenceIdeal.RefAt.Am a1 = fun r m => ((aR (ix2 r m) : ℝ) : EReal) :=
    funext fun r => funext fun m => haR (ix2 r m)
  have eW : Cert.ReferenceIdeal.RefAt.Wm a2 = Cert.KernelIdeal.Payload.Wm a2 := rfl
  have eq : Cert.ReferenceIdeal.RefAt.divisor = ((8 : ℝ) : EReal) := by
    show Ideal.sqrt (Ideal.ofBits .f32 0x42800000#32) = _
    rw [Cert.Consts.ofBits_64, Cert.Consts.sqrt_64]
  rw [eXk, eXr, eAk, eAr, eW, eq]
  show Cert.Attention.outR _ _ _ _ (Ideal.ofBits .f32 0xFF800000#32) (Ideal.ofBits .f32 0x00000000#32) r o
    = Cert.Attention.outK _ _ _ (Ideal.ofBits .f32 0x3E000000#32) (Ideal.ofBits .f32 0xFF800000#32) (Ideal.ofBits .f32 0x00000000#32) r o
  rw [Cert.Consts.ofBits_eighth, Cert.Consts.ofBits_negInf, Ideal.ofBits_zero_f32]
  exact (Cert.Attention.outK_eq_outR _ _ _ r o).symm

/-- THE BRIDGE: on real rows and adjacency the reference's result is the kernel's. -/
theorem result_eq (h0 : ∀ i, ∃ r : ℝ, a0 i = (r : EReal)) (h1 : ∀ i, ∃ r : ℝ, a1 i = (r : EReal)) :
    Cert.ReferenceIdeal.Read.val_main_v24 (F := Ideal) a0 a1 a2 = tail (groups (F := Ideal) (head a0) a1 a2) := by
  have hrelu : Cert.ReferenceIdeal.Read.val_main_v24 (F := Ideal) a0 a1 a2
      = tail (fun j => max (Cert.ReferenceIdeal.Read.val_main_v21 (F := Ideal) a0 a1 a2 j) (Ideal.ofBits .f32 0x00000000#32)) := rfl
  rw [hrelu]
  exact congrArg tail (funext (entry_eq a0 a1 a2 h0 h1))

end Cert.Bridge

end
-- ==== Proof.lean ====
/- The proof of `Cert.Claim` (proofs.«132124_j82566451299288_2_alg».proof.Defs): adjacency-masked attention over 96 groups
   of 1024 rows, a pipelined kernel against a plain reference.

   Both programs transpose and reshape the argument to a `[96, 1024, 64]` array of groups, compute for every group and
   row the attention output projected and compared with zero, and reshape and transpose back. They differ in two places:
   the kernel multiplies the query row by 1/8 where the reference divides the inner product by the square root of 64,
   and the kernel divides the adjacency-weighted sum once by the row's normaliser where the reference divides every
   exponential by it. Both are laws of the real field, so they need the rows and the adjacency to be real numbers, which
   is what the precondition says of them (Proof/Finite.lean); on real inputs every score, maximum, exponential and
   normaliser is real and the normaliser is positive (Proof/AttentionLaw.lean over Proof/Attention.lean).

   Kernel side: what the body leaves in its output block (Proof/Block.lean: the loop's twelve stores are the slabs of one
   function), the region's result array from its eight blocks (Proof/KernelArray.lean), the run with the host lines around
   the region (Proof/KernelRun.lean), the body's arithmetic at an entry (Proof/PayloadAt.lean). Reference side: its
   operations at an entry (Proof/RefAt.lean). The two results are one array: Proof/Bridge.lean. The three frames are the
   generated ones (the reference's is its generated run with the result dropped); the idealization rewrote nothing, so
   `preserves` is trivial. -/
import proofs.«132124_j82566451299288_2_alg».proof.Defs
import proofs.«132124_j82566451299288_2_alg».proof.Proof.Gen.Kernel
import proofs.«132124_j82566451299288_2_alg».proof.Proof.Gen.Kernel.Skeleton
import proofs.«132124_j82566451299288_2_alg».proof.Proof.Gen.Kernel.Loops
import proofs.«132124_j82566451299288_2_alg».proof.Proof.Gen.Kernel.Launch
import proofs.«132124_j82566451299288_2_alg».proof.Proof.Gen.Kernel.Points
import proofs.«132124_j82566451299288_2_alg».proof.Proof.Gen.Kernel.Frame
import proofs.«132124_j82566451299288_2_alg».proof.Proof.Gen.KernelIdeal
import proofs.«132124_j82566451299288_2_alg».proof.Proof.Gen.KernelIdeal.Skeleton
import proofs.«132124_j82566451299288_2_alg».proof.Proof.Gen.KernelIdeal.Loops
import proofs.«132124_j82566451299288_2_alg».proof.Proof.Gen.KernelIdeal.Launch
import proofs.«132124_j82566451299288_2_alg».proof.Proof.Gen.KernelIdeal.Points
import proofs.«132124_j82566451299288_2_alg».proof.Proof.Gen.KernelIdeal.Frame
import proofs.«132124_j82566451299288_2_alg».proof.Proof.Gen.ReferenceIdeal
import proofs.«132124_j82566451299288_2_alg».proof.Proof.Gen.Pre_finite_inputs
import proofs.«132124_j82566451299288_2_alg».proof.Proof.Gen.ReferenceIdeal.Run
import proofs.«132124_j82566451299288_2_alg».proof.Proof.Gen.ReferenceIdeal.Read
import proofs.«132124_j82566451299288_2_alg».proof.Proof.KernelRun
import proofs.«132124_j82566451299288_2_alg».proof.Proof.Finite
import proofs.«132124_j82566451299288_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree and are real where the law needs it, both programs end with the same result: the kernel's
    run read (`tail (groups (head x) adj w)`), the reference's generated run, and the bridge between the two terms. -/
theorem algebraic : Cert.algebraic_KernelIdeal_ReferenceIdeal := by
  intro m ρ m' ρ' hpre hagree
  refine ⟨_, Cert.KernelIdeal.Arr.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Finite.real_of_pre _ _ _ (hpre c)
  rw [Cert.ReferenceIdeal.Read.val_main_v24_eq, (hagree c).1, (hagree c).2.1, (hagree c).2.2]
  exact Cert.Bridge.result_eq _ _ _ h0 h1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
